-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 33
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S100000x1, .f32⟩
  | .hbm, ⟨29, _⟩ => ⟨S128x128, .f32⟩
  | .hbm, ⟨30, _⟩ => ⟨S128x128, .f32⟩
  | .hbm, ⟨31, _⟩ => ⟨S1x128, .f32⟩
  | .hbm, ⟨32, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Found.lean ====
/-
  What the kernel's region finds in the arrays its windows stage. Before the region the host has computed, from the
  node table and the edge list, the per-node sums of the gathered rows and the per-node edge counts (the same operations,
  in the same order, as the reference's first steps), laid the counts out as a column, transposed the two weight
  matrices and laid the bias out as a row. Each of these arrays is named here as that function of the arguments.
-/
import proofs.«135252_j69088843924164_1_alg».proof.Proof.Gen.KernelIdeal.Frame
import proofs.«135252_j69088843924164_1_alg».proof.Proof.Gen.ReferenceIdeal.Read
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The per-node sums of the rows gathered along the edges: the reference's scatter-add of its gather. -/
theorem found_sums (c : Dev nD) :
    (V m c main_v13 : S100000x128.Idx → EReal)
      = Cert.ReferenceIdeal.Read.val_main_v13 (F := Ideal) (m ((c : Thread nD τ).loc main_arg0)) (m ((c : Thread nD τ).loc main_arg1)) := by
  dsimp only [Gen.V, Gen.hostOps0]
  after_results <;> rfl

/-- The per-node edge counts as a column: the reference's scatter-add of ones, reshaped to one column. -/
theorem found_counts (c : Dev nD) :
    (V m c main_v18 : S100000x1.Idx → EReal)
      = shapeCast S100000x1 (Cert.ReferenceIdeal.Read.val_main_v17 (F := Ideal) (m ((c : Thread nD τ).loc main_arg1)))
          Facts₀.shapeCasts_S100000_S100000x1 := by
  dsimp only [Gen.V, Gen.hostOps0]
  after_results <;> rfl

/-- The left weights, transposed. -/
theorem found_wl (c : Dev nD) :
    (V m c main_v19 : S128x128.Idx → EReal)
      = transpose S128x128 [1, 0] (m ((c : Thread nD τ).loc main_arg2)) Facts₀.transposes_S128x128_S128x128_1_0 := by
  dsimp only [Gen.V, Gen.hostOps0]
  after_results <;> rfl

/-- The right weights, transposed. -/
theorem found_wr (c : Dev nD) :
    (V m c main_v20 : S128x128.Idx → EReal)
      = transpose S128x128 [1, 0] (m ((c : Thread nD τ).loc main_arg4)) Facts₀.transposes_S128x128_S128x128_1_0 := by
  dsimp only [Gen.V, Gen.hostOps0]
  after_results <;> rfl

/-- The bias as one row. -/
theorem found_bias (c : Dev nD) :
    (V m c main_v21 : S1x128.Idx → EReal)
      = shapeCast S1x128 (m ((c : Thread nD τ).loc main_arg3)) Facts₀.shapeCasts_S128_S1x128 := by
  dsimp only [Gen.V, Gen.hostOps0]
  after_results <;> rfl

end Cert.KernelIdeal.Hand

end
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.Blocks.lean ====
/-
  The blocks the kernel's body is handed at a grid point, entry by entry. The grid has 20 points; point t works on rows
  5000 t … 5000 t + 4999. Entry (p, c) of the point's block of the edge sums, of the edge counts and of the node table
  is the entry of row 5000 t + p of the whole array; the transposed weights and the bias row are handed over whole at
  every point, so entry (c, q) of a weight block is entry (q, c) of the weight matrix, and entry (0, q) of the bias block
  is entry q of the bias.
-/
import proofs.«135252_j69088843924164_1_alg».proof.Proof.Found
import proofs.«135252_j69088843924164_1_alg».proof.Proof.LibKeepdims
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.ValueIdx

/-- The printed index maps over the 20 grid points: the row windows (edge sums, edge counts, node table, output) are at
    block row t, block column 0; the weights and the bias are at block (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-! ## A window's block read out of any array of the window's shape -/

/-- Window 0 (128 columns, block row t): entry (p, q) of the block is entry (5000 t + p, q) of the array. -/
theorem read_win0 (A : S100000x128.Idx → EReal) (t : Fin cfg0.N) (p : Fin 5000) (q : Fin 128) (a : Fin 100000)
    (ha : a.val = 5000 * t.val + p.val) :
    ((cfg0.win 0).blk t).view.read (Elt Ideal) A (ix2 p q) = A (ix2 a q) := by
  obtain ⟨⟨e0, e1⟩, -⟩ := index_facts t
  have h : ((cfg0.win 0).blk t).view.emb (ix2 p q) = (ix2 a q : S100000x128.Idx) := funext fun ax => Fin.ext (by
    match ax with
    | ⟨0, _⟩ => show win0_0.index t (0 : Fin 2) * 5000 + 1 * p.val = a.val; rw [e0, ha]; omega
    | ⟨1, _⟩ => show win0_0.index t (1 : Fin 2) * 128 + 1 * q.val = q.val; rw [e1]; omega)
  show A (((cfg0.win 0).blk t).view.emb (ix2 p q)) = A (ix2 a q)
  rw [h]

/-- Window 1 (one column, block row t): entry (p, 0) of the block is entry (5000 t + p, 0) of the array. -/
theorem read_win1 (A : S100000x1.Idx → EReal) (t : Fin cfg0.N) (p : Fin 5000) (a : Fin 100000)
    (ha : a.val = 5000 * t.val + p.val) :
    ((cfg0.win 1).blk t).view.read (Elt Ideal) A (ix2 p (0 : Fin 1)) = A (ix2 a (0 : Fin 1)) := by
  obtain ⟨-, ⟨e0, e1⟩, -⟩ := index_facts t
  have h : ((cfg0.win 1).blk t).view.emb (ix2 p (0 : Fin 1)) = (ix2 a (0 : Fin 1) : S100000x1.Idx) := funext fun ax => Fin.ext (by
    match ax with
    | ⟨0, _⟩ => show win0_1.index t (0 : Fin 2) * 5000 + 1 * p.val = a.val; rw [e0, ha]; omega
    | ⟨1, _⟩ => show win0_1.index t (1 : Fin 2) * 1 + 1 * 0 = 0; rw [e1])
  show A (((cfg0.win 1).blk t).view.emb (ix2 p (0 : Fin 1))) = A (ix2 a (0 : Fin 1))
  rw [h]

/-- Window 2 (128 columns, block row t): entry (p, q) of the block is entry (5000 t + p, q) of the array. -/
theorem read_win2 (A : S100000x128.Idx → EReal) (t : Fin cfg0.N) (p : Fin 5000) (q : Fin 128) (a : Fin 100000)
    (ha : a.val = 5000 * t.val + p.val) :
    ((cfg0.win 2).blk t).view.read (Elt Ideal) A (ix2 p q) = A (ix2 a q) := by
  obtain ⟨-, -, ⟨e0, e1⟩, -⟩ := index_facts t
  have h : ((cfg0.win 2).blk t).view.emb (ix2 p q) = (ix2 a q : S100000x128.Idx) := funext fun ax => Fin.ext (by
    match ax with
    | ⟨0, _⟩ => show win0_2.index t (0 : Fin 2) * 5000 + 1 * p.val = a.val; rw [e0, ha]; omega
    | ⟨1, _⟩ => show win0_2.index t (1 : Fin 2) * 128 + 1 * q.val = q.val; rw [e1]; omega)
  show A (((cfg0.win 2).blk t).view.emb (ix2 p q)) = A (ix2 a q)
  rw [h]

/-- Window 3 (a whole 128 × 128 matrix at every point). -/
theorem read_win3 (A : S128x128.Idx → EReal) (t : Fin cfg0.N) (k q : Fin 128) :
    ((cfg0.win 3).blk t).view.read (Elt Ideal) A (ix2 k q) = A (ix2 k q) := by
  obtain ⟨-, -, -, ⟨e0, e1⟩, -⟩ := index_facts t
  have h : ((cfg0.win 3).blk t).view.emb (ix2 k q) = (ix2 k q : S128x128.Idx) := funext fun ax => Fin.ext (by
    match ax with
    | ⟨0, _⟩ => show win0_3.index t (0 : Fin 2) * 128 + 1 * k.val = k.val; rw [e0]; omega
    | ⟨1, _⟩ => show win0_3.index t (1 : Fin 2) * 128 + 1 * q.val = q.val; rw [e1]; omega)
  show A (((cfg0.win 3).blk t).view.emb (ix2 k q)) = A (ix2 k q)
  rw [h]

/-- Window 4 (the whole 1 × 128 row at every point). -/
theorem read_win4 (A : S1x128.Idx → EReal) (t : Fin cfg0.N) (q : Fin 128) :
    ((cfg0.win 4).blk t).view.read (Elt Ideal) A (ix2 (0 : Fin 1) q) = A (ix2 (0 : Fin 1) q) := by
  obtain ⟨-, -, -, -, ⟨e0, e1⟩, -⟩ := index_facts t
  have h : ((cfg0.win 4).blk t).view.emb (ix2 (0 : Fin 1) q) = (ix2 (0 : Fin 1) q : S1x128.Idx) := funext fun ax => Fin.ext (by
    match ax with
    | ⟨0, _⟩ => show win0_4.index t (0 : Fin 2) * 1 + 1 * 0 = 0; rw [e0]
    | ⟨1, _⟩ => show win0_4.index t (1 : Fin 2) * 128 + 1 * q.val = q.val; rw [e1]; omega)
  show A (((cfg0.win 4).blk t).view.emb (ix2 (0 : Fin 1) q)) = A (ix2 (0 : Fin 1) q)
  rw [h]

/-- Window 5 (a whole 128 × 128 matrix at every point). -/
theorem read_win5 (A : S128x128.Idx → EReal) (t : Fin cfg0.N) (k q : Fin 128) :
    ((cfg0.win 5).blk t).view.read (Elt Ideal) A (ix2 k q) = A (ix2 k q) := by
  obtain ⟨-, -, -, -, -, ⟨e0, e1⟩, -⟩ := index_facts t
  have h : ((cfg0.win 5).blk t).view.emb (ix2 k q) = (ix2 k q : S128x128.Idx) := funext fun ax => Fin.ext (by
    match ax with
    | ⟨0, _⟩ => show win0_5.index t (0 : Fin 2) * 128 + 1 * k.val = k.val; rw [e0]; omega
    | ⟨1, _⟩ => show win0_5.index t (1 : Fin 2) * 128 + 1 * q.val = q.val; rw [e1]; omega)
  show A (((cfg0.win 5).blk t).view.emb (ix2 k q)) = A (ix2 k q)
  rw [h]

/-- Window 6, the output (128 columns, block row t): entry (p, q) of the block is entry (5000 t + p, q) of the array. -/
theorem read_win6 (A : S100000x128.Idx → EReal) (t : Fin cfg0.N) (p : Fin 5000) (q : Fin 128) (a : Fin 100000)
    (ha : a.val = 5000 * t.val + p.val) :
    ((cfg0.win 6).blk t).view.read (Elt Ideal) A (ix2 p q) = A (ix2 a q) := by
  obtain ⟨-, -, -, -, -, -, e0, e1⟩ := index_facts t
  have h : ((cfg0.win 6).blk t).view.emb (ix2 p q) = (ix2 a q : S100000x128.Idx) := funext fun ax => Fin.ext (by
    match ax with
    | ⟨0, _⟩ => show win0_6.index t (0 : Fin 2) * 5000 + 1 * p.val = a.val; rw [e0, ha]; omega
    | ⟨1, _⟩ => show win0_6.index t (1 : Fin 2) * 128 + 1 * q.val = q.val; rw [e1]; omega)
  show A (((cfg0.win 6).blk t).view.emb (ix2 p q)) = A (ix2 a q)
  rw [h]

/-! ## The body's six input blocks at point t -/

variable (m : (ℓ : Loc nD τ sig) → Buf (Elt Ideal) ℓ)

/-- Entry (p, q) of point t's block of the edge sums is the sum of row 5000 t + p. -/
theorem blk_sums (c : Dev nD) (t : Fin cfg0.N) (p : Fin 5000) (q : Fin 128) (a : Fin 100000) (ha : a.val = 5000 * t.val + p.val) :
    (iblk m c 0 t : Vec Ideal S5000x128 .f32) (ix2 p q)
      = Cert.ReferenceIdeal.Read.val_main_v13 (F := Ideal) (m ((c : Thread nD τ).loc main_arg0)) (m ((c : Thread nD τ).loc main_arg1)) (ix2 a q) := by
  rw [← found_sums m c]
  show ((cfg0.win 0).blk t).view.read (Elt Ideal) (V m c main_v13) (ix2 p q) = _
  exact read_win0 (V m c main_v13) t p q a ha

/-- Entry (p, 0) of point t's block of the edge counts is the count of node 5000 t + p. -/
theorem blk_counts (c : Dev nD) (t : Fin cfg0.N) (p : Fin 5000) (a : Fin 100000) (ha : a.val = 5000 * t.val + p.val) :
    (iblk m c 1 t : Vec Ideal S5000x1 .f32) (ix2 p (0 : Fin 1))
      = Cert.ReferenceIdeal.Read.val_main_v17 (F := Ideal) (m ((c : Thread nD τ).loc main_arg1)) (ix1 a) := by
  rw [← shapeCast_a_a1_apply (Cert.ReferenceIdeal.Read.val_main_v17 (F := Ideal) (m ((c : Thread nD τ).loc main_arg1)))
    Facts₀.shapeCasts_S100000_S100000x1 a (0 : Fin 1), ← found_counts m c]
  show ((cfg0.win 1).blk t).view.read (Elt Ideal) (V m c main_v18) (ix2 p (0 : Fin 1)) = _
  exact read_win1 (V m c main_v18) t p a ha

/-- Entry (p, q) of point t's block of the node table is the entry of row 5000 t + p. -/
theorem blk_nodes (c : Dev nD) (t : Fin cfg0.N) (p : Fin 5000) (q : Fin 128) (a : Fin 100000) (ha : a.val = 5000 * t.val + p.val) :
    (iblk m c 2 t : Vec Ideal S5000x128 .f32) (ix2 p q)
      = (m ((c : Thread nD τ).loc main_arg0) : S100000x128.Idx → EReal) (ix2 a q) := by
  rw [← V_main_arg0 m c]
  show ((cfg0.win 2).blk t).view.read (Elt Ideal) (V m c main_arg0) (ix2 p q) = _
  exact read_win2 (V m c main_arg0) t p q a ha

/-- Entry (k, q) of the left weights' block is entry (q, k) of the left weight matrix. -/
theorem blk_wl (c : Dev nD) (t : Fin cfg0.N) (k q : Fin 128) :
    (iblk m c 3 t : Vec Ideal S128x128 .f32) (ix2 k q)
      = (m ((c : Thread nD τ).loc main_arg2) : S128x128.Idx → EReal) (ix2 q k) := by
  rw [← transpose_ix2_apply (m ((c : Thread nD τ).loc main_arg2) : S128x128.Idx → EReal)
    Facts₀.transposes_S128x128_S128x128_1_0 k q, ← found_wl m c]
  show ((cfg0.win 3).blk t).view.read (Elt Ideal) (V m c main_v19) (ix2 k q) = _
  exact read_win3 (V m c main_v19) t k q

/-- Entry (0, q) of the bias block is entry q of the bias. -/
theorem blk_bias (c : Dev nD) (t : Fin cfg0.N) (q : Fin 128) :
    (iblk m c 4 t : Vec Ideal S1x128 .f32) (ix2 (0 : Fin 1) q)
      = (m ((c : Thread nD τ).loc main_arg3) : S128.Idx → EReal) (ix1 q) := by
  rw [← shapeCast_a_1a_apply (m ((c : Thread nD τ).loc main_arg3) : S128.Idx → EReal)
    Facts₀.shapeCasts_S128_S1x128 (0 : Fin 1) q, ← found_bias m c]
  show ((cfg0.win 4).blk t).view.read (Elt Ideal) (V m c main_v21) (ix2 (0 : Fin 1) q) = _
  exact read_win4 (V m c main_v21) t q

/-- Entry (k, q) of the right weights' block is entry (q, k) of the right weight matrix. -/
theorem blk_wr (c : Dev nD) (t : Fin cfg0.N) (k q : Fin 128) :
    (iblk m c 5 t : Vec Ideal S128x128 .f32) (ix2 k q)
      = (m ((c : Thread nD τ).loc main_arg4) : S128x128.Idx → EReal) (ix2 q k) := by
  rw [← transpose_ix2_apply (m ((c : Thread nD τ).loc main_arg4) : S128x128.Idx → EReal)
    Facts₀.transposes_S128x128_S128x128_1_0 k q, ← found_wr m c]
  show ((cfg0.win 5).blk t).view.read (Elt Ideal) (V m c main_v20) (ix2 k q) = _
  exact read_win5 (V m c main_v20) t k q

end Cert.KernelIdeal.Hand

end
-- ==== Proof.MeanLayer.lean ====
/-
  One graph layer with mean aggregation, as a function of its arrays. The rows of a node table X (100000 nodes, 128
  features) are sent along edges and added up at the receiving node: S (a, c) is the sum of feature c over the edges that
  end at node a, and D (a) is the number of those edges. The mean over the incoming edges is S (a, c) / max (D (a), 1),
  and the layer's output is

      out (a, q) = sum over c of mean (a, c) * Wl (q, c)  +  sum over c of X (a, c) * Wr (q, c)  +  b (q).

  Everything is read on the extended reals; the quotient is the exact one with its conventions at zero and the
  infinities, and 1 is the binary float word of one.
-/
import Idealize.ShloMosaic.Lib.ValueIdx
import Idealize.ShloMosaic.PureOps.Ideal.Laws

noncomputable section

namespace Cert.MeanLayer

open Idealize.ShloMosaic Idealize.ShloMosaic.ValueIdx
open scoped BigOperators

/-- The float word of one, as an extended real. -/
abbrev one : EReal := Ideal.ofBits .f32 0x3F800000#32

/-- Entry (a, q) of the layer's output. -/
def entry (S X : FVec Ideal ⟨2, ![100000, 128]⟩ .f32) (D : FVec Ideal ⟨1, ![100000]⟩ .f32)
    (Wl Wr : FVec Ideal ⟨2, ![128, 128]⟩ .f32) (b : FVec Ideal ⟨1, ![128]⟩ .f32) (a : Fin 100000) (q : Fin 128) : EReal :=
  (∑ c : Fin 128, Ideal.div (S (ix2 a c)) (max (D (ix1 a)) one) * Wl (ix2 q c))
    + (∑ c : Fin 128, X (ix2 a c) * Wr (ix2 q c)) + b (ix1 q)

/-- The layer's output array. -/
def out (S X : FVec Ideal ⟨2, ![100000, 128]⟩ .f32) (D : FVec Ideal ⟨1, ![100000]⟩ .f32)
    (Wl Wr : FVec Ideal ⟨2, ![128, 128]⟩ .f32) (b : FVec Ideal ⟨1, ![128]⟩ .f32) : FVec Ideal ⟨2, ![100000, 128]⟩ .f32 :=
  fun i => entry S X D Wl Wr b (i 0) (i 1)

theorem out_apply (S X : FVec Ideal ⟨2, ![100000, 128]⟩ .f32) (D : FVec Ideal ⟨1, ![100000]⟩ .f32)
    (Wl Wr : FVec Ideal ⟨2, ![128, 128]⟩ .f32) (b : FVec Ideal ⟨1, ![128]⟩ .f32) (a : Fin 100000) (q : Fin 128) :
    out S X D Wl Wr b (ix2 a q) = entry S X D Wl Wr b a q := rfl

/-- The same entry with the bias added before the second product: addition of extended reals is commutative and
    associative, so the order of the three summands does not matter. -/
theorem entry_bias_first (S X : FVec Ideal ⟨2, ![100000, 128]⟩ .f32) (D : FVec Ideal ⟨1, ![100000]⟩ .f32)
    (Wl Wr : FVec Ideal ⟨2, ![128, 128]⟩ .f32) (b : FVec Ideal ⟨1, ![128]⟩ .f32) (a : Fin 100000) (q : Fin 128) :
    (∑ c : Fin 128, Ideal.div (S (ix2 a c)) (max (D (ix1 a)) one) * Wl (ix2 q c)) + b (ix1 q)
      + (∑ c : Fin 128, X (ix2 a c) * Wr (ix2 q c)) = entry S X D Wl Wr b a q := by
  unfold entry
  exact add_right_comm _ _ _

end Cert.MeanLayer

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.BlockEntry.lean ====
/-
  What the kernel's body stores at one entry of its row block. The body holds a block of 5000 rows of the edge sums s
  and of the node table x, the block's 5000 edge counts d as a column, the two weight matrices already transposed
  (wl (c, q) = Wl (q, c), wr likewise) and the bias as a row. It divides each row of s by max (d, 1), multiplies the
  quotient and x with the transposed weights on the matrix unit from a zero accumulator, and adds the two products and
  the bias row. Rounding the operands to a shorter float format changes nothing on the extended reals. So entry (p, q)
  of the stored block is

      sum over c of (s (p, c) / max (d (p), 1)) * wl (c, q)  +  sum over c of x (p, c) * wr (c, q)  +  bias (0, q).
-/
import proofs.«135252_j69088843924164_1_alg».proof.Proof.Gen.KernelIdeal.Skeleton
import proofs.«135252_j69088843924164_1_alg».proof.Proof.MeanLayer
import proofs.«135252_j69088843924164_1_alg».proof.Proof.LibDot
import proofs.«135252_j69088843924164_1_alg».proof.Proof.LibKeepdims
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx
open scoped BigOperators

/-- The printed record of the block product is the plain matrix product's: contract the left operand's columns with
    the right operand's rows. -/
theorem dot_eq : dot_S5000x128_S128x128_S5000x128_1_0_0_1_n_n
    = Cert.LibDot.dims (m := 5000) (k := 128) (n := 128) Facts₀.dot_S5000x128_S128x128_S5000x128_1_0_0_1_n_n_wf := rfl

/-- Entry (p, q) of the block the body stores. -/
theorem stored_entry (d : FVec Ideal S5000x1 .f32) (s x : FVec Ideal S5000x128 .f32) (wl wr : FVec Ideal S128x128 .f32)
    (bias : FVec Ideal S1x128 .f32) (p : Fin 5000) (q : Fin 128) :
    k0_pay1 (F := Ideal) d s x wl wr bias (ix2 p q)
      = (∑ c : Fin 128, Ideal.div (s (ix2 p c)) (max (d (ix2 p (0 : Fin 1))) Cert.MeanLayer.one) * wl (ix2 c q))
        + (∑ c : Fin 128, x (ix2 p c) * wr (ix2 c q)) + bias (ix2 (0 : Fin 1) q) := by
  unfold k0_pay1
  simp only [shapeCast_self]
  rw [addf_apply, addf_apply, dot_eq, Cert.LibDot.matmul_zero_apply, Cert.LibDot.matmul_zero_apply,
    broadcastTo_1b_ab_apply]
  refine congrArg₂ (· + ·) (congrArg₂ (· + ·) (Finset.sum_congr rfl fun c _ => ?_) (Finset.sum_congr rfl fun c _ => ?_)) rfl
  · rw [truncf_apply, truncf_apply, divf_apply, broadcastTo_a1_ab_apply, maximumf_apply, broadcast_apply]
    rfl
  · rw [truncf_apply, truncf_apply]

end Cert.KernelIdeal.Hand

end
-- ==== Proof.Final.lean ====
/-
  The kernel's result array after the run is the layer's output array. Grid point t writes back rows
  5000 t … 5000 t + 4999 of the result. At entry (p, q) of that block the body stored the two products and the bias over
  the point's input blocks; every block entry is an entry of row 5000 t + p of the edge sums, the edge counts or the
  node table, or an entry of a weight matrix or of the bias, so the stored value is the layer's entry (5000 t + p, q).
  The 20 blocks of 5000 rows cover the 100000 rows: row r lies in the block of point r / 5000.
-/
import proofs.«135252_j69088843924164_1_alg».proof.Proof.Blocks
import proofs.«135252_j69088843924164_1_alg».proof.Proof.BlockEntry
import proofs.«135252_j69088843924164_1_alg».proof.Proof.Gen.KernelIdeal.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

theorem zero_offsets : (![0, 0] : Fin 2 → Nat) = fun _ => 0 := funext fun a => by fin_cases a <;> rfl

/-- The layer's output of the arguments: the edge sums and edge counts are the host's scatter-adds over the edge list. -/
abbrev result (c : Dev nD) : Buf (Elt Ideal) ((c : Thread nD τ).loc main_v22) :=
  Cert.MeanLayer.out
    (Cert.ReferenceIdeal.Read.val_main_v13 (F := Ideal) (m ((c : Thread nD τ).loc main_arg0)) (m ((c : Thread nD τ).loc main_arg1)))
    (m ((c : Thread nD τ).loc main_arg0))
    (Cert.ReferenceIdeal.Read.val_main_v17 (F := Ideal) (m ((c : Thread nD τ).loc main_arg1)))
    (m ((c : Thread nD τ).loc main_arg2)) (m ((c : Thread nD τ).loc main_arg4)) (m ((c : Thread nD τ).loc main_arg3))

/-- What point t writes back is block t of the layer's output. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  funext j
  obtain ⟨p, q, rfl⟩ : ∃ (p : Fin 5000) (q : Fin 128), j = ix2 p q := ⟨j 0, j 1, eq_ix2 j⟩
  have hN : cfg0.N = 20 := N_0
  have ht : t.val < 20 := hN ▸ t.isLt
  have hp := p.isLt
  obtain ⟨a, ha⟩ : ∃ a : Fin 100000, a.val = 5000 * t.val + p.val := ⟨⟨5000 * t.val + p.val, by omega⟩, rfl⟩
  rw [read_win6 (result m c) t p q a ha]
  show k0_pay1 (iblk m c 1 t) (iblk m c 0 t) (iblk m c 2 t) (iblk m c 3 t) (iblk m c 5 t) (iblk m c 4 t) (ix2 p q) = _
  refine (stored_entry (iblk m c 1 t) (iblk m c 0 t) (iblk m c 2 t) (iblk m c 3 t) (iblk m c 5 t) (iblk m c 4 t) p q).trans ?_
  refine Eq.trans ?_ (Cert.MeanLayer.out_apply _ _ _ _ _ _ a q).symm
  unfold Cert.MeanLayer.entry
  refine congrArg₂ (· + ·) (congrArg₂ (· + ·) (Finset.sum_congr rfl fun k _ => ?_) (Finset.sum_congr rfl fun k _ => ?_)) ?_
  · rw [blk_sums m c t p k a ha, blk_counts m c t p a ha, blk_wl m c t k q]
  · rw [blk_nodes m c t p k a ha, blk_wr m c t k q]
  · exact blk_bias m c t q

/-- An index of the result array is in point t's block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v22).slice (win0_6.rect t)).set ↔ _
  rw [View.set_slice_whole, Rect.mem_set_unit]
  exact Iff.rfl

/-- The result array after the run is the layer's output: every row lies in the block of the point its number divided by 5000 names. -/
theorem final (c : Dev nD) : (dats m 0 c).arrAt 6 cfg0.N = result m c :=
  (dats m 0 c).arrAt_eq_of_cover 6 (result m c) (fun t _ => flushed_eq m c t) fun i => by
    have hN : cfg0.N = 20 := N_0
    have h0 : (i 0 : Nat) < 100000 := (i 0).isLt
    have h1 : (i 1 : Nat) < 128 := (i 1).isLt
    obtain ⟨t, ht⟩ : ∃ t : Fin cfg0.N, t.val = (i 0 : Nat) / 5000 := ⟨⟨(i 0 : Nat) / 5000, by rw [hN]; omega⟩, rfl⟩
    obtain ⟨-, -, -, -, -, -, e0, e1⟩ := index_facts t
    refine ⟨t, flush0_6 t, ?_⟩
    rw [mem_blk]
    intro a
    match a with
    | ⟨0, _⟩ =>
      show win0_6.index t (0 : Fin 2) * 5000 ≤ (i 0 : Nat) ∧ (i 0 : Nat) < win0_6.index t (0 : Fin 2) * 5000 + 5000
      rw [e0, ht]; omega
    | ⟨1, _⟩ =>
      show win0_6.index t (1 : Fin 2) * 128 ≤ (i 1 : Nat) ∧ (i 1 : Nat) < win0_6.index t (1 : Fin 2) * 128 + 128
      rw [e1]; omega

/-- The kernel's run: the result array ends at the layer's output of the arguments, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Hand

end
-- ==== Proof.RefEntry.lean ====
/-
  The reference's result is the layer's output array. Read at entry (a, q), its last operation adds the node table's
  product with the transposed right weights to the sum of the mean's product with the transposed left weights and the
  bias; the mean is the edge sums divided by max (edge count, 1), the count being spread over the 128 features. That is
  the layer's entry with the bias added before the second product.
-/
import proofs.«135252_j69088843924164_1_alg».proof.Proof.Gen.ReferenceIdeal.Read
import proofs.«135252_j69088843924164_1_alg».proof.Proof.MeanLayer

noncomputable section

namespace Cert.ReferenceIdeal.Hand

open Cert.ReferenceIdeal Cert.ReferenceIdeal.Read Idealize.ShloMosaic Idealize.ShloMosaic.ValueIdx
open scoped BigOperators

theorem lidx24 (a : Fin 100000) (q k : Fin 128) : lidx_main_v24 (ix2 a q) k = ix2 a k :=
  funext fun ax => Fin.ext (by match ax with | ⟨0, _⟩ => rfl | ⟨1, _⟩ => rfl)
theorem ridx24 (a : Fin 100000) (q k : Fin 128) : ridx_main_v24 (ix2 a q) k = ix2 k q :=
  funext fun ax => Fin.ext (by match ax with | ⟨0, _⟩ => rfl | ⟨1, _⟩ => rfl)
theorem lidx29 (a : Fin 100000) (q k : Fin 128) : lidx_main_v29 (ix2 a q) k = ix2 a k :=
  funext fun ax => Fin.ext (by match ax with | ⟨0, _⟩ => rfl | ⟨1, _⟩ => rfl)
theorem ridx29 (a : Fin 100000) (q k : Fin 128) : ridx_main_v29 (ix2 a q) k = ix2 k q :=
  funext fun ax => Fin.ext (by match ax with | ⟨0, _⟩ => rfl | ⟨1, _⟩ => rfl)
theorem idx23 (k q : Fin 128) : idx_main_v23 (ix2 k q) = ix2 q k :=
  funext fun ax => Fin.ext (by match ax with | ⟨0, _⟩ => rfl | ⟨1, _⟩ => rfl)
theorem idx28 (k q : Fin 128) : idx_main_v28 (ix2 k q) = ix2 q k :=
  funext fun ax => Fin.ext (by match ax with | ⟨0, _⟩ => rfl | ⟨1, _⟩ => rfl)
theorem idx20_21 (a : Fin 100000) (k : Fin 128) : idx_main_v20 (idx_main_v21 (ix2 a k)) = ix1 a :=
  funext fun ax => Fin.ext (by match ax with | ⟨0, _⟩ => rfl)
theorem idx25_26 (a : Fin 100000) (q : Fin 128) : idx_main_v25 (idx_main_v26 (ix2 a q)) = ix1 q :=
  funext fun ax => Fin.ext (by match ax with | ⟨0, _⟩ => rfl)

/-- Entry (a, k) of the mean: the edge sum over max (edge count, 1). -/
theorem mean_apply (x0 : (⟨S100000x128, .f32⟩ : BufTy).Contents (Elt Ideal)) (x1 : (⟨S2x1600000, .i32⟩ : BufTy).Contents (Elt Ideal))
    (a : Fin 100000) (k : Fin 128) :
    val_main_v22 (F := Ideal) x0 x1 (ix2 a k)
      = Ideal.div (val_main_v13 (F := Ideal) x0 x1 (ix2 a k)) (max (val_main_v17 (F := Ideal) x1 (ix1 a)) Cert.MeanLayer.one) := by
  rw [val_main_v22_apply, val_main_v21_apply, val_main_v20_apply, val_main_v19_apply, val_main_v18_apply,
    val_main_cst_3_apply, idx20_21]
  rfl

/-- The reference's result array is the layer's output of the edge sums, the node table, the edge counts, the weights and the bias. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v30 (F := Ideal) x0 x1 x2 x3 x4
      = Cert.MeanLayer.out (val_main_v13 (F := Ideal) x0 x1) x0 (val_main_v17 (F := Ideal) x1) x2 x4 x3 := by
  funext i
  obtain ⟨a, q, rfl⟩ : ∃ (a : Fin 100000) (q : Fin 128), i = ix2 a q := ⟨i 0, i 1, eq_ix2 i⟩
  rw [Cert.MeanLayer.out_apply, ← Cert.MeanLayer.entry_bias_first]
  rw [val_main_v30_apply, val_main_v27_apply, val_main_v24_apply, val_main_v29_apply, val_main_v26_apply, val_main_v25_apply,
    idx25_26, Ideal.addf_def, Ideal.addf_def]
  refine congrArg₂ (· + ·) (congrArg₂ (· + ·) (Finset.sum_congr rfl fun k _ => ?_) rfl) (Finset.sum_congr rfl fun k _ => ?_)
  · rw [lidx24, ridx24, mean_apply, val_main_v23_apply, idx23]
  · rw [lidx29, ridx29, val_main_v28_apply, idx28]

end Cert.ReferenceIdeal.Hand

end
-- ==== Proof.lean ====
/-
  A graph layer with mean aggregation: the kernel against its reference, on the extended reals.

  Both programs begin with the same host steps: the rows of the node table are gathered along the edges' sources and added
  up at the edges' targets (the edge sums S), and ones are added up at the targets (the edge counts D). From there the
  reference divides S by max (D, 1) row by row, multiplies the quotient with the transposed left weights, adds the bias, and
  adds the node table's product with the transposed right weights. The kernel does the division, both products and the two
  additions in one pass over 20 blocks of 5000 rows, adding the bias last. On the extended reals each product's entry is the
  sum over the 128 features of the entries' products, whichever unit computes it and whatever float format the operands are
  rounded to on the way; so at entry (a, q) both results are the same three summands, and addition of extended reals is
  commutative and associative. No input needs to be finite for that.

  The kernel's word-level program and its reading on the extended reals are the same text (nothing was rewritten), so the
  idealization claim is trivial; the three frames are the generated ones, the reference's being its generated run with the
  result dropped.
-/
import proofs.«135252_j69088843924164_1_alg».proof.Defs
import proofs.«135252_j69088843924164_1_alg».proof.Proof.Gen.Kernel
import proofs.«135252_j69088843924164_1_alg».proof.Proof.Gen.Kernel.Skeleton
import proofs.«135252_j69088843924164_1_alg».proof.Proof.Gen.Kernel.Launch
import proofs.«135252_j69088843924164_1_alg».proof.Proof.Gen.Kernel.Points
import proofs.«135252_j69088843924164_1_alg».proof.Proof.Gen.Kernel.Frame
import proofs.«135252_j69088843924164_1_alg».proof.Proof.Gen.KernelIdeal
import proofs.«135252_j69088843924164_1_alg».proof.Proof.Gen.KernelIdeal.Skeleton
import proofs.«135252_j69088843924164_1_alg».proof.Proof.Gen.KernelIdeal.Launch
import proofs.«135252_j69088843924164_1_alg».proof.Proof.Gen.KernelIdeal.Points
import proofs.«135252_j69088843924164_1_alg».proof.Proof.Gen.KernelIdeal.Frame
import proofs.«135252_j69088843924164_1_alg».proof.Proof.Gen.KernelIdeal.Value
import proofs.«135252_j69088843924164_1_alg».proof.Proof.Gen.ReferenceIdeal
import proofs.«135252_j69088843924164_1_alg».proof.Proof.Gen.ReferenceIdeal.Run
import proofs.«135252_j69088843924164_1_alg».proof.Proof.Gen.ReferenceIdeal.Read
import proofs.«135252_j69088843924164_1_alg».proof.Proof.Gen.Pre_finite_inputs
import proofs.«135252_j69088843924164_1_alg».proof.Proof.Final
import proofs.«135252_j69088843924164_1_alg».proof.Proof.RefEntry
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end at the layer's output of the arguments: the kernel's by its blocks, the reference's operation by
    operation; the arguments agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.Hand.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
